-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S1x8192 : Shape := ⟨2, ![1, 8192]⟩
abbrev S8192x1 : Shape := ⟨2, ![8192, 1]⟩
abbrev S512x1 : Shape := ⟨2, ![512, 1]⟩
abbrev S512x128 : Shape := ⟨2, ![512, 128]⟩
abbrev S512 : Shape := ⟨1, ![512]⟩
abbrev S1x512 : Shape := ⟨2, ![1, 512]⟩
abbrev S512x512 : Shape := ⟨2, ![512, 512]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S1x8192, .i32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8192x128, .f32⟩
  | .local _ .vmem, ⟨1, _⟩ => ⟨S1x8192, .i32⟩
  | .local _ .vmem, ⟨2, _⟩ => ⟨S512x1, .f32⟩
  | .local _ .vmem, ⟨3, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
def k0_off2 (i : grid0.Coords) : Fin 2 → Nat :=
  let c0_0 : Index := 0#32
  let arg0 : BitVec 32 := BitVec.ofNat 32 (i 0).val
  let c512_i32 : BitVec 32 := 512#32
  let v0 : BitVec 32 := Scalar.muli arg0 c512_i32
  let v1 : BitVec 32 := v0
  let v8 : Index := Scalar.indexCast v1
  ![0, v8.toNat]
def k0_mult2 : BitVec 32 :=
  let c0_i32 : BitVec 32 := 0#32
  let c512_i32_2 : BitVec 32 := 512#32
  let v13 : BitVec 32 := Scalar.muli c0_i32 c512_i32_2
  v13
def k0_off3 (c0_i32 : BitVec 32) : Fin 2 → Nat :=
  let c512_i32_2 : BitVec 32 := 512#32
  let v13 : BitVec 32 := Scalar.muli c0_i32 c512_i32_2
  let v14 : BitVec 32 := v13
  let v15 : Index := Scalar.indexCast v14
  let c0_3 : Index := 0#32
  ![v15.toNat, 0]
def k0_off4 (c0_i32 : BitVec 32) : Fin 2 → Nat :=
  let c0_5 : Index := 0#32
  let c512_i32_2 : BitVec 32 := 512#32
  let v13 : BitVec 32 := Scalar.muli c0_i32 c512_i32_2
  let v14 : BitVec 32 := v13
  let v22 : Index := Scalar.indexCast v14
  ![0, v22.toNat]
def k0_mult3 : BitVec 32 :=
  let c1_i32 : BitVec 32 := 1#32
  let c512_i32_14 : BitVec 32 := 512#32
  let v51 : BitVec 32 := Scalar.muli c1_i32 c512_i32_14
  v51
def k0_mult4 : BitVec 32 :=
  let c2_i32 : BitVec 32 := 2#32
  let c512_i32_26 : BitVec 32 := 512#32
  let v89 : BitVec 32 := Scalar.muli c2_i32 c512_i32_26
  v89
def k0_mult5 : BitVec 32 :=
  let c3_i32 : BitVec 32 := 3#32
  let c512_i32_38 : BitVec 32 := 512#32
  let v127 : BitVec 32 := Scalar.muli c3_i32 c512_i32_38
  v127
def k0_mult6 : BitVec 32 :=
  let c4_i32 : BitVec 32 := 4#32
  let c512_i32_50 : BitVec 32 := 512#32
  let v165 : BitVec 32 := Scalar.muli c4_i32 c512_i32_50
  v165
def k0_mult7 : BitVec 32 :=
  let c5_i32 : BitVec 32 := 5#32
  let c512_i32_62 : BitVec 32 := 512#32
  let v203 : BitVec 32 := Scalar.muli c5_i32 c512_i32_62
  v203
def k0_mult8 : BitVec 32 :=
  let c6_i32 : BitVec 32 := 6#32
  let c512_i32_74 : BitVec 32 := 512#32
  let v241 : BitVec 32 := Scalar.muli c6_i32 c512_i32_74
  v241
def k0_mult9 : BitVec 32 :=
  let c7_i32 : BitVec 32 := 7#32
  let c512_i32_86 : BitVec 32 := 512#32
  let v279 : BitVec 32 := Scalar.muli c7_i32 c512_i32_86
  v279
def k0_mult10 : BitVec 32 :=
  let c8_i32 : BitVec 32 := 8#32
  let c512_i32_98 : BitVec 32 := 512#32
  let v317 : BitVec 32 := Scalar.muli c8_i32 c512_i32_98
  v317
def k0_mult11 : BitVec 32 :=
  let c9_i32 : BitVec 32 := 9#32
  let c512_i32_110 : BitVec 32 := 512#32
  let v355 : BitVec 32 := Scalar.muli c9_i32 c512_i32_110
  v355
def k0_mult12 : BitVec 32 :=
  let c10_i32 : BitVec 32 := 10#32
  let c512_i32_122 : BitVec 32 := 512#32
  let v393 : BitVec 32 := Scalar.muli c10_i32 c512_i32_122
  v393
def k0_mult13 : BitVec 32 :=
  let c11_i32 : BitVec 32 := 11#32
  let c512_i32_134 : BitVec 32 := 512#32
  let v431 : BitVec 32 := Scalar.muli c11_i32 c512_i32_134
  v431
def k0_mult14 : BitVec 32 :=
  let c12_i32 : BitVec 32 := 12#32
  let c512_i32_146 : BitVec 32 := 512#32
  let v469 : BitVec 32 := Scalar.muli c12_i32 c512_i32_146
  v469
def k0_mult15 : BitVec 32 :=
  let c13_i32 : BitVec 32 := 13#32
  let c512_i32_158 : BitVec 32 := 512#32
  let v507 : BitVec 32 := Scalar.muli c13_i32 c512_i32_158
  v507
def k0_mult16 : BitVec 32 :=
  let c14_i32 : BitVec 32 := 14#32
  let c512_i32_170 : BitVec 32 := 512#32
  let v545 : BitVec 32 := Scalar.muli c14_i32 c512_i32_170
  v545
def k0_mult17 : BitVec 32 :=
  let c15_i32 : BitVec 32 := 15#32
  let c512_i32_182 : BitVec 32 := 512#32
  let v583 : BitVec 32 := Scalar.muli c15_i32 c512_i32_182
  v583
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S1x8192 : S8192.ShapeCasts S1x8192
  h_S512x128 : 0 < S512x128.numel
  bitsLt_bf16_f32 : FTy.bits .bf16 < FTy.bits .f32
  reduces_S512x128_S512 : S512x128.Reduces [1] S512
  shapeCasts_S512_S512x1 : S512.ShapeCasts S512x1
  h_S1x512 : 0 < S1x512.numel
  shapeCasts_S1x512_S1x512 : S1x512.ShapeCasts S1x512
  transposes_S1x512_p1_0_S512x1 : S1x512.Transposes [1, 0] S512x1
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  inb_S512x1_S512x1_0_0 : ∀ a, (![0, 0] : Fin 2 → Nat) a + S512x1.size a ≤ S512x1.size a
  h_S512x1 : 0 < S512x1.numel
  reducesTo_S8192x1_S_d0_1 : S8192x1.ReducesTo [0, 1] S_
  h_S_ : 0 < S_.numel
  dot_S512x128_S512x128_S512x512_1_1_0_0_n_n_wf : DotDims.WF S512x128 S512x128 S512x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x128.size a ≤ S8192x128.size a
  k0_off2_inb : ∀ i : grid0.Coords, ∀ a, (k0_off2 i) a + S1x512.size a ≤ S1x8192.size a
  k0_mult2_dvd : 512 ∣ k0_mult2.toNat
  k0_off3_inb : ∀ (r : Fin 16), ∀ a, (k0_off3 (BitVec.ofNat 32 r.val)) a + S512x128.size a ≤ S8192x128.size a
  k0_off4_inb : ∀ (r : Fin 16), ∀ a, (k0_off4 (BitVec.ofNat 32 r.val)) a + S1x512.size a ≤ S1x8192.size a
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  k0_mult9_dvd : 512 ∣ k0_mult9.toNat
  k0_mult10_dvd : 512 ∣ k0_mult10.toNat
  k0_mult11_dvd : 512 ∣ k0_mult11.toNat
  k0_mult12_dvd : 512 ∣ k0_mult12.toNat
  k0_mult13_dvd : 512 ∣ k0_mult13.toNat
  k0_mult14_dvd : 512 ∣ k0_mult14.toNat
  k0_mult15_dvd : 512 ∣ k0_mult15.toNat
  k0_mult16_dvd : 512 ∣ k0_mult16.toNat
  k0_mult17_dvd : 512 ∣ k0_mult17.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .i32 = 32 ∨ (Rect.block (s := S1x8192) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_call3_cst : Ref sig .tc := ⟨.hbm, 43, rfl⟩
abbrev main_call3_v0 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_call4_v0 : Ref sig .tc := ⟨.hbm, 48, rfl⟩
abbrev main_call4_v1 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.PairLoss.lean ====
/-
  The pairwise contrastive loss of 8192 points in 128 dimensions, as one function of the two argument arrays on the
  extended reals.

  For points `z r` with labels `l r`: the squared norm `sq r = Σ_k z(r,k)²`, the inner product
  `gram r c = Σ_k z(r,k)·z(c,k)`, the clamped squared distance `d²(r,c) = max (sq r + sq c − 2·gram r c) 0`, and the entry
      e(r,c) = (d²(r,c) if l r = l c else 0) + (0 if l r = l c else (max (1 − √d²(r,c)) 0)²).
  The loss is `(Σ_r Σ_c e(r,c)) / 8192²`.

  Two facts about it are proved here, over abstract data, with no program in sight:
    • the guarded square root `if 0 < x then √(if 0 < x then x else 1) else 0` is `√x` for every `x` that is a maximum
      against zero (`√0 = 0`);
    • a sum over the 8192 columns is the sum over 16 consecutive groups of 512 columns, and so the sum of the row totals
      accumulated group by group is the double sum — additions of extended reals commute and associate, so no
      finiteness is needed.
-/
import Idealize.ShloMosaic.PureOps.Ideal.Laws
import Idealize.ShloMosaic.Lib.ValueIdx

noncomputable section

namespace Cert.PairLoss

open Idealize.ShloMosaic Idealize.ShloMosaic.ValueIdx

/-- The points: an `[8192, 128]` array of extended reals. -/
abbrev Pts := (⟨2, ![8192, 128]⟩ : Shape).Idx → EReal
/-- The labels: 8192 words. -/
abbrev Labs := (⟨1, ![8192]⟩ : Shape).Idx → BitVec 32

/-- The f32 words of 0, 1, 2 and 8192² = 67108864, read as extended reals. -/
abbrev zeroW : EReal := Ideal.ofBits .f32 0x00000000#32
abbrev oneW : EReal := Ideal.ofBits .f32 0x3F800000#32
abbrev twoW : EReal := Ideal.ofBits .f32 0x40000000#32
abbrev countW : EReal := Ideal.ofBits .f32 0x4C800000#32

/-- The squared norm of point `r`. -/
def sq (z : Pts) (r : Fin 8192) : EReal := ∑ k : Fin 128, z (ix2 r k) * z (ix2 r k)

/-- The inner product of points `r` and `c`. -/
def gram (z : Pts) (r c : Fin 8192) : EReal := ∑ k : Fin 128, z (ix2 r k) * z (ix2 c k)

/-- One pair's contribution from its clamped squared distance `d2` and the bit `e` that says the labels agree. -/
def pairTerm (d2 : EReal) (e : BitVec 1) : EReal :=
  Scalar.select e d2 zeroW
    + Scalar.select e zeroW (max (oneW - Ideal.sqrt d2) zeroW * max (oneW - Ideal.sqrt d2) zeroW)

/-- The clamped squared distance from the two squared norms and the inner product. -/
def sqDist (sr sc g : EReal) : EReal := max (sr + sc - twoW * g) zeroW

/-- The entry `e(r, c)`. -/
def entry (z : Pts) (l : Labs) (r c : Fin 8192) : EReal :=
  pairTerm (sqDist (sq z r) (sq z c) (gram z r c)) (IntOp.cmpi .eq (l (ix1 r)) (l (ix1 c)))

/-- The loss. -/
def loss (z : Pts) (l : Labs) : EReal := Ideal.div (∑ r : Fin 8192, ∑ c : Fin 8192, entry z l r c) countW

/-! ## The guarded square root -/

theorem sqrt_zeroW : Ideal.sqrt zeroW = zeroW := by
  show Ideal.sqrt (Ideal.ofBits .f32 0x00000000#32) = Ideal.ofBits .f32 0x00000000#32
  rw [Ideal.ofBits_zero_f32, ← EReal.coe_zero, Ideal.sqrt_coe, if_neg (lt_irrefl _), Real.sqrt_zero]

/-- For `x` a maximum against zero, selecting `√(x or 1)` where `0 < x` and `0` elsewhere is `√x`: the only `x` not above
    zero is zero itself, whose root is zero. -/
theorem guarded_sqrt (y : EReal) :
    Scalar.select (Ideal.cmp .ogt (max y zeroW) zeroW)
        (Ideal.sqrt (Scalar.select (Ideal.cmp .ogt (max y zeroW) zeroW) (max y zeroW) oneW)) zeroW
      = Ideal.sqrt (max y zeroW) := by
  by_cases h : zeroW < max y zeroW
  · have hc : Ideal.cmp .ogt (max y zeroW) zeroW = 1#1 := by
      show BitVec.ofBool (decide (zeroW < max y zeroW)) = 1#1
      rw [decide_eq_true h]; rfl
    rw [hc, select_one, select_one]
  · have hc : Ideal.cmp .ogt (max y zeroW) zeroW = 0#1 := by
      show BitVec.ofBool (decide (zeroW < max y zeroW)) = 0#1
      rw [decide_eq_false h]; rfl
    have hx : max y zeroW = zeroW := le_antisymm (not_lt.mp h) (le_max_right _ _)
    rw [hc, select_zero, hx, sqrt_zeroW]

/-! ## Columns in 16 groups of 512 -/

/-- Column `q` of group `j`. -/
def col (j : Fin 16) (q : Fin 512) : Fin 8192 := ⟨512 * j.val + q.val, by have := j.isLt; have := q.isLt; omega⟩

/-- The columns are the pairs (group, column in the group). -/
def colEquiv : Fin 16 × Fin 512 ≃ Fin 8192 where
  toFun p := col p.1 p.2
  invFun c := (⟨c.val / 512, by have := c.isLt; omega⟩, ⟨c.val % 512, Nat.mod_lt _ (by decide)⟩)
  left_inv p := by
    obtain ⟨j, q⟩ := p
    have := j.isLt; have := q.isLt
    refine Prod.ext (Fin.ext ?_) (Fin.ext ?_)
    · show (512 * j.val + q.val) / 512 = j.val
      omega
    · show (512 * j.val + q.val) % 512 = q.val
      omega
  right_inv c := Fin.ext (by show 512 * (c.val / 512) + c.val % 512 = c.val; omega)

/-- A sum over the columns is the sum over the groups of the sums inside each group. -/
theorem sum_cols (f : Fin 8192 → EReal) : ∑ j : Fin 16, ∑ q : Fin 512, f (col j q) = ∑ c : Fin 8192, f c := by
  rw [← Equiv.sum_comp colEquiv f, Fintype.sum_prod_type]
  rfl

/-- The row total as it is accumulated: from zero, the 16 group sums added one after the other. -/
def rowTotal (f : Fin 8192 → EReal) : EReal :=
  zeroW + (∑ q, f (col 0 q)) + (∑ q, f (col 1 q)) + (∑ q, f (col 2 q)) + (∑ q, f (col 3 q))
    + (∑ q, f (col 4 q)) + (∑ q, f (col 5 q)) + (∑ q, f (col 6 q)) + (∑ q, f (col 7 q))
    + (∑ q, f (col 8 q)) + (∑ q, f (col 9 q)) + (∑ q, f (col 10 q)) + (∑ q, f (col 11 q))
    + (∑ q, f (col 12 q)) + (∑ q, f (col 13 q)) + (∑ q, f (col 14 q)) + (∑ q, f (col 15 q))

/-- The accumulated row total is the sum over all columns. -/
theorem rowTotal_eq (f : Fin 8192 → EReal) : rowTotal f = ∑ c : Fin 8192, f c := by
  have key : ∀ g : Fin 16 → EReal,
      zeroW + g 0 + g 1 + g 2 + g 3 + g 4 + g 5 + g 6 + g 7 + g 8 + g 9 + g 10 + g 11 + g 12 + g 13 + g 14 + g 15
        = ∑ j, g j := by
    intro g
    rw [show (zeroW : EReal) = 0 from Ideal.ofBits_zero_f32, zero_add]
    simp only [Fin.sum_univ_succ, Fin.sum_univ_zero, add_zero, add_assoc]
    rfl
  rw [← sum_cols f]
  exact key fun j => ∑ q, f (col j q)

end Cert.PairLoss

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibTransposedMatmul.lean ====
/-
  A matrix product whose right operand is contracted on its second axis, read at coordinates.

  For the contraction `[M, K] × [N, K] → [M, N]` (each operand contracted on its second axis, no batch axis),
  accumulated into the zero matrix, the entry `(r, c)` of the result is `Σ_k lhs (r, k) · rhs (c, k)` on the extended
  reals, at any extents: row `r` of the left operand against row `c` of the right one — the product `A · Bᵀ` with no
  transpose ever formed. The one contraction coordinate `k` runs over `Fin K`.
-/
import Idealize.ShloMosaic.Lib.ValueIdx
import Idealize.ShloMosaic.PureOps.Ideal.Laws

namespace Cert.TransposedMatmul

open Idealize.ShloMosaic Idealize.ShloMosaic.ValueIdx

variable {M K N : ℕ}

/-- The left operand's row coordinate is the result's row coordinate. -/
theorem lhs_row (j : (⟨2, ![M, N]⟩ : Shape).Idx) (q : (DotDims.transposedRhs M K N).contr.Idx) :
    ((DotDims.transposedRhs M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand's row coordinate is the result's column coordinate. -/
theorem rhs_row (j : (⟨2, ![M, N]⟩ : Shape).Idx) (q : (DotDims.transposedRhs M K N).contr.Idx) :
    ((DotDims.transposedRhs M K N).rhsIdx j q (0 : Fin (⟨2, ![N, K]⟩ : Shape).rank)).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The product into the zero matrix, at `(r, c)`: the sum over `k` of `lhs (r, k) · rhs (c, k)`. -/
theorem transposedRhs_apply {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k)
      = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.TransposedMatmul
-- ==== Proof.Tile.lean ====
/-
  One group of 512 columns against a block of 512 rows.

  The kernel's body treats its 512 rows `zi` against the 8192 columns in 16 groups of 512. For one group `zj` it forms
  the [512, 512] block of clamped squared distances `max (sq_i(p) + sq_j(q) − 2·⟨zi(p), zj(q)⟩) 0`, the block of label
  agreements, the block of entries, and sums the entries of each row: a [512, 1] column. The body's result is the zero
  column with the 16 groups' columns added one after the other.

  This module writes that computation once, for any float instance, as three blocks and their row sums, and reads it
  at `Ideal` index by index: the entry `(p, q)` depends on row `p` of the row block and on row `q` of the group only.
-/
import proofs.«134183_j55181739819237_1_alg».proof.Proof.Gen.KernelIdeal
import proofs.«134183_j55181739819237_1_alg».proof.Proof.PairLoss
import proofs.«134183_j55181739819237_1_alg».proof.Proof.LibColumnLayout
import proofs.«134183_j55181739819237_1_alg».proof.Proof.LibTransposedMatmul
import Idealize.ShloMosaic.Lib.ValueLayout

noncomputable section

namespace Cert.KernelIdeal.Tile

open Idealize.ShloMosaic Idealize.ShloMosaic.ValueIdx Cert.KernelIdeal Cert.KernelIdeal.Gen Cert.PairLoss

variable {F : FTy → Type} [FloatOps F]

/-- The squared norms of a block's 512 rows, as a column. -/
def sqCol (z : Vec F S512x128 .f32) : FVec F S512x1 .f32 :=
  shapeCast S512x1 (multiReduction .add [1] S512 (mulf z z) 0x00000000#32 reduces_S512x128_S512 (.inl rfl) rfl)
    shapeCasts_S512_S512x1

/-- A row of 512 labels stood up as a column. -/
def labCol (l : Vec F S1x512 .i32) : IVec S512x1 32 :=
  transpose S512x1 [1, 0] (shapeCast S1x512 l shapeCasts_S1x512_S1x512) transposes_S1x512_p1_0_S512x1

/-- The block of clamped squared distances between the rows `zi` (their squared norms `sqi` given) and the rows `zj`. -/
def d2Block (zi : FVec F S512x128 .bf16) (sqi : FVec F S512x1 .f32) (zj : Vec F S512x128 .f32) : FVec F S512x512 .f32 :=
  maximumf
    (subf
      (addf (broadcastTo S512x512 sqi broadcasts_S512x1_S512x512)
        (broadcastTo S512x512 (transpose S1x512 [1, 0] (sqCol zj) transposes_S512x1_p1_0_S1x512) broadcasts_S1x512_S512x512))
      (mulf (broadcast S512x512 (Scalar.ofBits .f32 0x40000000#32))
        (matmul dot_S512x128_S512x128_S512x512_1_1_0_0_n_n none zi (truncf .bf16 zj bitsLt_bf16_f32)
          (constant S512x512 .f32 0x00000000#32))))
    (broadcast S512x512 (Scalar.ofBits .f32 0x00000000#32))

/-- The block of label agreements: the rows' labels `li` (a column) against the group's labels `lj` (a row). -/
def eqBlock (li : IVec S512x1 32) (lj : Vec F S1x512 .i32) : IVec S512x512 1 :=
  cmpi .eq (broadcastTo S512x512 li broadcasts_S512x1_S512x512)
    (broadcastTo S512x512 (shapeCast S1x512 lj shapeCasts_S1x512_S1x512 : IVec S1x512 32) broadcasts_S1x512_S512x512)

/-- The block of entries from the squared distances and the agreements. -/
def termBlock (d2 : FVec F S512x512 .f32) (e : IVec S512x512 1) : FVec F S512x512 .f32 :=
  addf (select e d2 (broadcast S512x512 (Scalar.ofBits .f32 0x00000000#32)))
    (select e (broadcast S512x512 (Scalar.ofBits .f32 0x00000000#32))
      (mulf
        (maximumf (subf (broadcast S512x512 (Scalar.ofBits .f32 0x3F800000#32)) (sqrt d2))
          (broadcast S512x512 (Scalar.ofBits .f32 0x00000000#32)))
        (maximumf (subf (broadcast S512x512 (Scalar.ofBits .f32 0x3F800000#32)) (sqrt d2))
          (broadcast S512x512 (Scalar.ofBits .f32 0x00000000#32)))))

/-- One group's row sums, as a column. -/
def groupSums (zi : FVec F S512x128 .bf16) (sqi : FVec F S512x1 .f32) (li : IVec S512x1 32)
    (zj : Vec F S512x128 .f32) (lj : Vec F S1x512 .i32) : FVec F S512x1 .f32 :=
  shapeCast S512x1
    (multiReduction .add [1] S512 (termBlock (d2Block zi sqi zj) (eqBlock li lj)) 0x00000000#32 reduces_S512x512_S512
      (.inl rfl) rfl)
    shapeCasts_S512_S512x1

/-- The body's result from its row block `zi` with labels `li` and the 16 groups `zs j` with labels `ls j`: the zero
    column, then each group's row sums added in turn. -/
def rowTotals (zi : Vec F S512x128 .f32) (li : Vec F S1x512 .i32) (zs : Fin 16 → Vec F S512x128 .f32)
    (ls : Fin 16 → Vec F S1x512 .i32) : FVec F S512x1 .f32 :=
  let g (j : Fin 16) : FVec F S512x1 .f32 :=
    groupSums (truncf .bf16 zi bitsLt_bf16_f32) (sqCol zi) (labCol li) (zs j) (ls j)
  addf (addf (addf (addf (addf (addf (addf (addf (addf (addf (addf (addf (addf (addf (addf (addf
    (broadcast S512x1 (Scalar.ofBits .f32 0x00000000#32)) (g 0)) (g 1)) (g 2)) (g 3)) (g 4)) (g 5)) (g 6)) (g 7))
    (g 8)) (g 9)) (g 10)) (g 11)) (g 12)) (g 13)) (g 14)) (g 15)

/-! ## Read at `Ideal`, index by index -/

theorem sqCol_apply (z : Vec Ideal S512x128 .f32) (p : Fin 512) (u : Fin 1) :
    sqCol z (ix2 p u) = ∑ k : Fin 128, z (ix2 p k) * z (ix2 p k) := by
  unfold sqCol
  rw [Cert.ColumnLayout.shapeCast_a_a1_apply]
  exact Cert.ColumnLayout.rowSum_apply (mulf z z) _ _ _ p

theorem labCol_apply (l : Vec F S1x512 .i32) (p : Fin 512) (u : Fin 1) : labCol l (ix2 p u) = l (ix2 u p) := by
  unfold labCol
  rw [transpose_ix2_apply, shapeCast_self]

/-- The product of the row block with the group's rows, each contracted on its second axis, at `(p, q)`. -/
theorem gram_apply (zi zj : FVec Ideal S512x128 .bf16) (p q : Fin 512) :
    matmul dot_S512x128_S512x128_S512x512_1_1_0_0_n_n none zi zj (constant S512x512 .f32 0x00000000#32) (ix2 p q)
      = ∑ k : Fin 128, zi (ix2 p k) * zj (ix2 q k) :=
  Cert.TransposedMatmul.transposedRhs_apply zi zj p q

theorem d2Block_apply (zi : FVec Ideal S512x128 .bf16) (sqi : FVec Ideal S512x1 .f32) (zj : Vec Ideal S512x128 .f32)
    (p q : Fin 512) :
    d2Block zi sqi zj (ix2 p q)
      = sqDist (sqi (ix2 p 0)) (∑ k : Fin 128, zj (ix2 q k) * zj (ix2 q k)) (∑ k : Fin 128, zi (ix2 p k) * zj (ix2 q k)) := by
  unfold d2Block sqDist
  rw [maximumf_apply, subf_apply, addf_apply, mulf_apply, Cert.ColumnLayout.broadcastTo_a1_ab_apply,
    broadcastTo_1b_ab_apply, transpose_ix2_apply, sqCol_apply]
  rw [gram_apply]
  rfl

theorem eqBlock_apply (li : IVec S512x1 32) (lj : Vec F S1x512 .i32) (p q : Fin 512) :
    eqBlock li lj (ix2 p q) = IntOp.cmpi .eq (li (ix2 p 0)) (lj (ix2 0 q)) := by
  unfold eqBlock
  show IntOp.cmpi .eq _ _ = _
  rw [Cert.ColumnLayout.broadcastTo_a1_ab_apply, broadcastTo_1b_ab_apply, shapeCast_self]

theorem termBlock_apply (d2 : FVec Ideal S512x512 .f32) (e : IVec S512x512 1) (i : S512x512.Idx) :
    termBlock d2 e i = pairTerm (d2 i) (e i) := rfl

theorem groupSums_apply (zi : FVec Ideal S512x128 .bf16) (sqi : FVec Ideal S512x1 .f32) (li : IVec S512x1 32)
    (zj : Vec Ideal S512x128 .f32) (lj : Vec Ideal S1x512 .i32) (p : Fin 512) (u : Fin 1) :
    groupSums zi sqi li zj lj (ix2 p u)
      = ∑ q : Fin 512, pairTerm
          (sqDist (sqi (ix2 p 0)) (∑ k : Fin 128, zj (ix2 q k) * zj (ix2 q k)) (∑ k : Fin 128, zi (ix2 p k) * zj (ix2 q k)))
          (IntOp.cmpi .eq (li (ix2 p 0)) (lj (ix2 0 q))) := by
  unfold groupSums
  rw [Cert.ColumnLayout.shapeCast_a_a1_apply]
  refine (Cert.ColumnLayout.rowSum_apply (termBlock (d2Block zi sqi zj) (eqBlock li lj)) _ _ _ p).trans ?_
  refine Finset.sum_congr rfl fun q _ => ?_
  rw [termBlock_apply, d2Block_apply, eqBlock_apply]

end Cert.KernelIdeal.Tile

end
-- ==== Proof.BodyValue.lean ====
/-
  What the kernel's body leaves in its output block, as a value.

  At grid point `i` the body loads rows `512·i … 512·i + 511` of the points and the matching 512 labels, then for each of
  the 16 groups `j` rows `512·j … 512·j + 511` and their labels, and stores one [512, 1] column: the zero column with
  the 16 groups' row sums added in turn (`Tile.rowTotals`). Read at `Ideal`, row `p` of that column is the accumulated
  total over all 8192 columns of the entries of row `512·i + p` of the pair matrix.
-/
import proofs.«134183_j55181739819237_1_alg».proof.Proof.Gen.KernelIdeal.Frame
import proofs.«134183_j55181739819237_1_alg».proof.Proof.Tile
import Idealize.ShloMosaic.Lib.Pipeline.Value
import Idealize.ShloMosaic.Lib.Tactic

noncomputable section

open Idealize.ShloMosaic Idealize.ShloMosaic.TcCoe Idealize.SL.Sem

namespace Cert.KernelIdeal.Body

open Idealize.ShloMosaic.ValueIdx Cert.KernelIdeal Cert.KernelIdeal.Gen Cert.KernelIdeal.Tile Cert.PairLoss

variable {F : FTy → Type} [FloatOps F]

theorem hz : (![0, 0] : Fin 2 → Nat) = fun _ => 0 := funext fun a => by fin_cases a <;> rfl

/-- Rows `512·j … 512·j + 511` lie inside the 8192 rows. -/
theorem rows_inb (j : Fin 16) : ∀ a, (![512 * j.val, 0] : Fin 2 → ℕ) a + S512x128.size a ≤ S8192x128.size a := by
  intro a
  have := j.isLt
  match a with
  | ⟨0, _⟩ => show 512 * j.val + 512 ≤ 8192; omega
  | ⟨1, _⟩ => show 0 + 128 ≤ 128; omega

/-- Labels `512·j … 512·j + 511` lie inside the 8192 labels. -/
theorem labs_inb (j : Fin 16) : ∀ a, (![0, 512 * j.val] : Fin 2 → ℕ) a + S1x512.size a ≤ S1x8192.size a := by
  intro a
  have := j.isLt
  match a with
  | ⟨0, _⟩ => show 0 + 1 ≤ 1; omega
  | ⟨1, _⟩ => show 512 * j.val + 512 ≤ 8192; omega

/-- The body's one covering store leaves the accumulated row totals of its loads: the row block at the point's
    offset, and the 16 groups at their literal offsets. -/
theorem out_eq (c : Dev nD) (i : grid0.Coords) (a1 : Memref sig .tc .vmem S8192x128 .f32) (h1 : a1.IsWhole)
    (a2 : Memref sig .tc .vmem S1x8192 .i32) (h2 : a2.IsWhole) (a3 : Memref sig .tc .vmem S512x1 .f32) (h3 : a3.IsWhole)
    (x0 : Vec F S8192x128 .f32) (x1 : Vec F S1x8192 .i32) :
    out0_A_2 c i a1 h1 a2 h2 a3 h3 x0 x1
      = rowTotals (View.ld x0 (Rect.unit (k0_off1 i) S512x128.size (k0_off1_inb i)))
          (View.ld x1 (Rect.unit (k0_off2 i) S1x512.size (k0_off2_inb i)))
          (fun j => View.ld x0 (Rect.unit ![512 * j.val, 0] S512x128.size (rows_inb j)))
          (fun j => View.ld x1 (Rect.unit ![0, 512 * j.val] S1x512.size (labs_inb j))) := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread]
  rfl

/-! ## The stored column at `Ideal`, row by row -/

/-- Row `p` of one group's column: the sum over the group's 512 rows `q` of the entries of the pair (row `p` of the
    row block, row `q` of the group). -/
def groupTotal (zi : Vec Ideal S512x128 .f32) (li : Vec Ideal S1x512 .i32) (zj : Vec Ideal S512x128 .f32)
    (lj : Vec Ideal S1x512 .i32) (p : Fin 512) : EReal :=
  ∑ q : Fin 512, pairTerm
    (sqDist (∑ k : Fin 128, zi (ix2 p k) * zi (ix2 p k)) (∑ k : Fin 128, zj (ix2 q k) * zj (ix2 q k))
      (∑ k : Fin 128, zi (ix2 p k) * zj (ix2 q k)))
    (IntOp.cmpi .eq (li (ix2 0 p)) (lj (ix2 0 q)))

theorem groupSums_head_apply (zi : Vec Ideal S512x128 .f32) (li : Vec Ideal S1x512 .i32) (zj : Vec Ideal S512x128 .f32)
    (lj : Vec Ideal S1x512 .i32) (p : Fin 512) (u : Fin 1) :
    groupSums (truncf .bf16 zi bitsLt_bf16_f32) (sqCol zi) (labCol li) zj lj (ix2 p u) = groupTotal zi li zj lj p := by
  rw [groupSums_apply, sqCol_apply, labCol_apply]
  rfl

/-- Row `p` of the accumulated column: zero, then the 16 groups' totals in turn. -/
theorem rowTotals_apply (zi : Vec Ideal S512x128 .f32) (li : Vec Ideal S1x512 .i32) (zs : Fin 16 → Vec Ideal S512x128 .f32)
    (ls : Fin 16 → Vec Ideal S1x512 .i32) (p : Fin 512) (u : Fin 1) :
    rowTotals zi li zs ls (ix2 p u)
      = zeroW + groupTotal zi li (zs 0) (ls 0) p + groupTotal zi li (zs 1) (ls 1) p + groupTotal zi li (zs 2) (ls 2) p
          + groupTotal zi li (zs 3) (ls 3) p + groupTotal zi li (zs 4) (ls 4) p + groupTotal zi li (zs 5) (ls 5) p
          + groupTotal zi li (zs 6) (ls 6) p + groupTotal zi li (zs 7) (ls 7) p + groupTotal zi li (zs 8) (ls 8) p
          + groupTotal zi li (zs 9) (ls 9) p + groupTotal zi li (zs 10) (ls 10) p + groupTotal zi li (zs 11) (ls 11) p
          + groupTotal zi li (zs 12) (ls 12) p + groupTotal zi li (zs 13) (ls 13) p + groupTotal zi li (zs 14) (ls 14) p
          + groupTotal zi li (zs 15) (ls 15) p := by
  unfold rowTotals
  simp only [addf_apply, groupSums_head_apply]
  rfl

/-! ## The loads, at coordinates -/

/-- Row `q` of the rows loaded at offset `512·j` is row `512·j + q` of the array. -/
theorem idx_rows (j : Fin 16) (inb) (q : Fin 512) (k : Fin 128) :
    (Rect.unit (s := S8192x128) ![512 * j.val, 0] ![512, 128] inb).idx (ix2 q k) = ix2 (col j q) k := by
  funext a
  apply Fin.ext
  match a with
  | ⟨0, _⟩ => show 512 * j.val + 1 * q.val = 512 * j.val + q.val; omega
  | ⟨1, _⟩ => show 0 + 1 * k.val = k.val; omega

/-- Label `q` of the labels loaded at offset `512·j` is label `512·j + q`. -/
theorem idx_labs (j : Fin 16) (inb) (q : Fin 512) :
    (Rect.unit (s := S1x8192) ![0, 512 * j.val] ![1, 512] inb).idx (ix2 (0 : Fin 1) q) = ix2 (0 : Fin 1) (col j q) := by
  funext a
  apply Fin.ext
  match a with
  | ⟨0, _⟩ => show 0 + 1 * 0 = 0; omega
  | ⟨1, _⟩ => show 512 * j.val + 1 * q.val = 512 * j.val + q.val; omega

/-- The row block's offset at grid point `i` is `512·i`. -/
theorem idx_rows_pt (i : grid0.Coords) (inb) (q : Fin 512) (k : Fin 128) :
    (Rect.unit (s := S8192x128) (k0_off1 i) ![512, 128] inb).idx (ix2 q k) = ix2 (col (i 0) q) k := by
  funext a
  apply Fin.ext
  match a with
  | ⟨0, _⟩ =>
    show k0_off1 i 0 + 1 * q.val = 512 * (i 0).val + q.val
    rw [k0_off1_eq]; show 512 * (i 0).val + 1 * q.val = _; omega
  | ⟨1, _⟩ =>
    show k0_off1 i 1 + 1 * k.val = k.val
    rw [k0_off1_eq]; show 0 + 1 * k.val = _; omega

theorem idx_labs_pt (i : grid0.Coords) (inb) (q : Fin 512) :
    (Rect.unit (s := S1x8192) (k0_off2 i) ![1, 512] inb).idx (ix2 (0 : Fin 1) q) = ix2 (0 : Fin 1) (col (i 0) q) := by
  funext a
  apply Fin.ext
  match a with
  | ⟨0, _⟩ =>
    show k0_off2 i 0 + 1 * 0 = 0
    rw [k0_off2_eq]; show 0 + 1 * 0 = 0; omega
  | ⟨1, _⟩ =>
    show k0_off2 i 1 + 1 * q.val = 512 * (i 0).val + q.val
    rw [k0_off2_eq]; show 512 * (i 0).val + 1 * q.val = _; omega

/-- The labels as the body sees them — a [1, 8192] row — read as a vector of 8192 labels. -/
def rowLabs (X1 : Vec Ideal S1x8192 .i32) : Labs := fun i => X1 (ix2 (0 : Fin 1) (i 0))

/-- One group's total in terms of the arrays: the entries of row `512·i + p` over the columns of group `j`. -/
theorem groupTotal_ld (X0 : Vec Ideal S8192x128 .f32) (X1 : Vec Ideal S1x8192 .i32) (i : grid0.Coords) (j : Fin 16)
    (p : Fin 512) :
    groupTotal (View.ld X0 (Rect.unit (k0_off1 i) S512x128.size (k0_off1_inb i)))
        (View.ld X1 (Rect.unit (k0_off2 i) S1x512.size (k0_off2_inb i)))
        (View.ld X0 (Rect.unit ![512 * j.val, 0] S512x128.size (rows_inb j)))
        (View.ld X1 (Rect.unit ![0, 512 * j.val] S1x512.size (labs_inb j))) p
      = ∑ q : Fin 512, entry X0 (rowLabs X1) (col (i 0) p) (col j q) := by
  unfold groupTotal entry PairLoss.sq PairLoss.gram rowLabs
  simp only [View.ld, idx_rows, idx_labs, idx_rows_pt, idx_labs_pt]

/-- Row `p` of the column the body stores at grid point `i`: the accumulated total of row `512·i + p` of the pair
    matrix. -/
theorem block_apply (X0 : Vec Ideal S8192x128 .f32) (X1 : Vec Ideal S1x8192 .i32) (i : grid0.Coords) (p : Fin 512)
    (u : Fin 1) :
    rowTotals (View.ld X0 (Rect.unit (k0_off1 i) S512x128.size (k0_off1_inb i)))
        (View.ld X1 (Rect.unit (k0_off2 i) S1x512.size (k0_off2_inb i)))
        (fun j => View.ld X0 (Rect.unit ![512 * j.val, 0] S512x128.size (rows_inb j)))
        (fun j => View.ld X1 (Rect.unit ![0, 512 * j.val] S1x512.size (labs_inb j))) (ix2 p u)
      = rowTotal (fun c => entry X0 (rowLabs X1) (col (i 0) p) c) := by
  rw [rowTotals_apply]
  simp only [groupTotal_ld]
  rfl

end Cert.KernelIdeal.Body

end
-- ==== Proof.KernelValue.lean ====
/-
  What the kernel's program returns, at `Ideal`.

  The region's output array is [8192, 1]: grid point `t` writes back rows `512·t … 512·t + 511`, each the accumulated
  total of its row of the pair matrix, so the 16 points' blocks tile the array and the array ends holding the column of
  all 8192 row totals. The host then adds the column up from zero and divides by 8192²: the loss.

  The points reach the region as they are; the labels reach it as a [1, 8192] row, a reshape of the label vector.
-/
import proofs.«134183_j55181739819237_1_alg».proof.Proof.Gen.KernelIdeal.Frame
import proofs.«134183_j55181739819237_1_alg».proof.Proof.BodyValue
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Result

open Idealize.ShloMosaic.ValueIdx Cert.KernelIdeal Cert.KernelIdeal.Gen Cert.KernelIdeal.Tile Cert.KernelIdeal.Body
  Cert.PairLoss

variable (m : (ℓ : Loc nD τ sig) → Buf (Elt Ideal) ℓ) (ρ : Dev nD → PrngReg)

/-- The column of accumulated row totals of the pair matrix. -/
def totals (z : Pts) (l : Labs) : S8192x1.Idx → EReal := fun i => rowTotal (fun c => entry z l (i 0) c)

/-- The printed index maps over the grid: the two inputs' one block is the whole array; the output's block index is
    the grid coordinate, which is the point's number. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0
    ∧ (grid0.coords t 0).val = t.val :=
  (by decide +kernel : ∀ t : Fin grid0.N, _)

/-- The points' block at every grid point is the whole array as the region finds it. -/
theorem iblk_pts (c : Dev nD) (t : Fin cfg0.N) : (iblk m c 0 t : Vec Ideal S8192x128 .f32) = V m c main_arg0 := by
  obtain ⟨e0, e1, -⟩ := idx_facts t
  funext j
  show V m c main_arg0 (((cfg0.win 0).blk t).view.emb j) = V m c main_arg0 j
  congr 1
  funext a
  apply Fin.ext
  match a with
  | ⟨0, _⟩ => show win0_0.index t (0 : Fin 2) * 8192 + 1 * (j 0).val = (j 0).val; omega
  | ⟨1, _⟩ => show win0_0.index t (1 : Fin 2) * 128 + 1 * (j 1).val = (j 1).val; omega

/-- The labels' block at every grid point is the whole [1, 8192] row as the region finds it. -/
theorem iblk_labs (c : Dev nD) (t : Fin cfg0.N) : (iblk m c 1 t : Vec Ideal S1x8192 .i32) = V m c main_v0 := by
  obtain ⟨-, -, e0, e1, -⟩ := idx_facts t
  funext j
  show V m c main_v0 (((cfg0.win 1).blk t).view.emb j) = V m c main_v0 j
  congr 1
  funext a
  apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

/-- What point `t` writes back is block `t` of the column of row totals. -/
theorem flushed_eq (c : Dev nD) (t : Fin cfg0.N) :
    (dats m 0 c).flushed 2 t
      = ((cfg0.win 2).blk t).view.read (Elt Ideal) (totals (V m c main_arg0) (rowLabs (V m c main_v0))) := by
  obtain ⟨-, -, -, -, e0, e1, -⟩ := idx_facts t
  show (cfg0.win 2).cut (grid0.coords t) ((dats m 0 c).after 2 t) = _
  rw [after0_2]
  unfold outsAt0
  rw [out_eq, iblk_pts, iblk_labs]
  funext j
  obtain ⟨p, u, rfl⟩ : ∃ (p : Fin 512) (u : Fin 1), j = ix2 p u := ⟨j 0, j 1, eq_ix2 j⟩
  refine (block_apply (V m c main_arg0) (V m c main_v0) (grid0.coords t) p u).trans ?_
  show rowTotal (fun c' => entry (V m c main_arg0) (rowLabs (V m c main_v0)) (col (grid0.coords t 0) p) c')
    = rowTotal (fun c' => entry (V m c main_arg0) (rowLabs (V m c main_v0)) ((((cfg0.win 2).blk t).view.emb (ix2 p u)) 0) c')
  have hrow : (((cfg0.win 2).blk t).view.emb (ix2 p u)) 0 = col (grid0.coords t 0) p := Fin.ext (by
    show win0_2.index t (0 : Fin 2) * 512 + 1 * p.val = 512 * (grid0.coords t 0).val + p.val
    omega)
  rw [hrow]

/-- An index of the [8192, 1] array is in point `t`'s block iff each coordinate is in the block's range. -/
theorem mem_blk (t : Fin cfg0.N) (i : S8192x1.Idx) :
    i ∈ ((cfg0.win 2).blk t).view.set
      ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- Row `r` is in the block of point `r / 512`. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 16 := N_0
  refine ⟨⟨(i 0).val / 512, by rw [hN]; omega⟩, flush0_2 _, ?_⟩
  obtain ⟨-, -, -, -, e0, e1, e2⟩ := idx_facts ⟨(i 0).val / 512, by rw [hN]; omega⟩
  rw [mem_blk]
  intro a
  match a with
  | ⟨0, _⟩ =>
    show win0_2.index _ (0 : Fin 2) * 512 ≤ (i 0).val ∧ (i 0).val < win0_2.index _ (0 : Fin 2) * 512 + 512
    rw [e0, e2]; show (i 0).val / 512 * 512 ≤ (i 0).val ∧ (i 0).val < (i 0).val / 512 * 512 + 512; omega
  | ⟨1, _⟩ =>
    show win0_2.index _ (1 : Fin 2) * 1 ≤ (i 1).val ∧ (i 1).val < win0_2.index _ (1 : Fin 2) * 1 + 1
    rw [e1]; omega

/-- The output array after the region: the column of row totals. -/
theorem final (c : Dev nD) :
    (dats m 0 c).arrAt 2 cfg0.N = totals (V m c main_arg0) (rowLabs (V m c main_v0)) :=
  (dats m 0 c).arrAt_eq_of_cover 2 (totals (V m c main_arg0) (rowLabs (V m c main_v0))) (fun t _ => flushed_eq m c t) cover

/-! ## The host lines around the region -/

/-- The labels as the region finds them: the label vector laid as one row. -/
theorem V_labs (c : Dev nD) :
    (V m c main_v0 : S1x8192.Idx → BitVec 32)
      = shapeCast S1x8192 (m ((c : Thread nD τ).loc main_arg1)) shapeCasts_S8192_S1x8192 := by
  show StableHlo.after hostOps0 (fun b => m (c, b)) (Proc.devRef .tc main_v0) = _
  after_results
  rfl

/-- Read back as a vector, that row is the label vector. -/
theorem rowLabs_V (c : Dev nD) : rowLabs (V m c main_v0) = m ((c : Thread nD τ).loc main_arg1) := by
  funext i
  unfold rowLabs
  rw [V_labs]
  exact (shapeCast_a_1a_apply (m ((c : Thread nD τ).loc main_arg1)) shapeCasts_S8192_S1x8192 0 (i 0)).trans
    (congrArg _ (eq_ix1 i).symm)

/-- The sum of the column of row totals, from zero, over 8192², is the loss. -/
theorem mean_totals (z : Pts) (l : Labs) :
    Host.divf (Host.reduceAdd (F := Ideal) (totals z l) (constant S_ .f32 0x00000000#32) reducesTo_S8192x1_S_d0_1 h_S_)
        (constant S_ .f32 0x4C800000#32)
      = fun _ => loss z l := by
  funext i
  show Ideal.div (Ideal.hostReduceAdd reducesTo_S8192x1_S_d0_1 (totals z l) (Ideal.ofBits .f32 0x00000000#32) i)
      (Ideal.ofBits .f32 0x4C800000#32) = loss z l
  rw [Ideal.hostReduceAdd_total reducesTo_S8192x1_S_d0_1 (fun b => b.elim0), Ideal.ofBits_zero_f32, zero_add, sum_idx2]
  unfold loss totals
  simp only [Fin.sum_univ_one, rowTotal_eq]

/-- @main's result: the loss of the two argument arrays. -/
theorem result_eq (c : Dev nD) :
    Pipeline.afterTail₀ cfgs (dats m) 0 (V0 m) [hostOps1] c main_v3
      = fun _ => loss (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (final m c), V_main_arg0, rowLabs_V]
  exact mean_totals _ _

/-- The run, read: every weakly fair execution ends with the result at the loss and the arguments unchanged. -/
theorem run : θ_run defs (onTc (τ := τ) (main (F := Ideal))) ⟨m, fun _ => 0, ρ⟩ fun r => ∀ c : Dev nD,
      r.2.mem ((c : Thread nD τ).loc main_v3)
        = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference program's result is the loss.

  The reference forms the whole 8192 × 8192 matrix at once: squared norms spread along rows and along columns, the Gram
  matrix `z·zᵀ`, the clamped squared distances, a square root guarded against zero (`where(d² > 0, √(where(d² > 0, d², 1)), 0)`),
  the label agreements, the entries, and their mean. Entry by entry this is the same expression as the loss's, but for
  the guard, which changes nothing: the only clamped squared distance not above zero is zero, and `√0 = 0`.
-/
import proofs.«134183_j55181739819237_1_alg».proof.Proof.Gen.ReferenceIdeal.Read
import proofs.«134183_j55181739819237_1_alg».proof.Proof.PairLoss

noncomputable section

namespace Cert.ReferenceIdeal.RefValue

open Idealize.ShloMosaic Idealize.ShloMosaic.ValueIdx Cert.ReferenceIdeal Cert.ReferenceIdeal.Gen Cert.ReferenceIdeal.Read
  Cert.PairLoss

/-- The reference's matrix of entries, at `(r, c)`. -/
theorem entry_eq (x0 : (⟨S8192x128, .f32⟩ : BufTy).Contents (Elt Ideal)) (x1 : (⟨S8192, .i32⟩ : BufTy).Contents (Elt Ideal))
    (r c : Fin 8192) : val_main_v30 (F := Ideal) x0 x1 (ix2 r c) = entry x0 x1 r c := by
  have h1 : ∀ k : Fin 128, idx_main_v1 (idx_main_v2 (idx_main_v4 (ix2 r c))) k = ix2 r k := fun k =>
    funext fun a => by match a with | ⟨0, _⟩ => rfl | ⟨1, _⟩ => rfl
  have h2 : ∀ k : Fin 128, idx_main_v1 (idx_main_v3 (idx_main_v5 (ix2 r c))) k = ix2 c k := fun k =>
    funext fun a => by match a with | ⟨0, _⟩ => rfl | ⟨1, _⟩ => rfl
  have h3 : ∀ k : Fin 128, lidx_main_v8 (ix2 r c) k = ix2 r k := fun k =>
    funext fun a => by match a with | ⟨0, _⟩ => rfl | ⟨1, _⟩ => rfl
  have h4 : ∀ k : Fin 128, idx_main_v7 (ridx_main_v8 (ix2 r c) k) = ix2 c k := fun k =>
    funext fun a => by match a with | ⟨0, _⟩ => rfl | ⟨1, _⟩ => rfl
  have h5 : idx_main_v19 (idx_main_v21 (ix2 r c)) = ix1 r := funext fun a => by match a with | ⟨0, _⟩ => rfl
  have h6 : idx_main_v20 (idx_main_v22 (ix2 r c)) = ix1 c := funext fun a => by match a with | ⟨0, _⟩ => rfl
  have hz : ∀ s : EReal, Ideal.ofBits .f32 0x00000000#32 + s = s := fun s => by rw [Ideal.ofBits_zero_f32, zero_add]
  simp only [val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply,
    val_main_cst_2_apply, val_main_cst_3_apply, val_main_cst_4_apply, val_main_cst_5_apply, val_main_cst_6_apply,
    val_main_cst_7_apply, val_main_call0_v0_apply, val_main_call0_v1_apply, val_main_call1_v0_apply,
    val_main_call1_v1_apply, val_main_call2_v0_apply, val_main_call2_v1_apply, val_main_call3_cst_apply,
    val_main_call3_v0_apply, val_main_call4_v0_apply, val_main_call4_v1_apply, h1, h2, h3, h4, h5, h6]
  simp only [Ideal.addf_def, Ideal.subf_def, Ideal.mulf_def, Ideal.maximumf_def, Ideal.cmpf_def, Ideal.hostUnary_sqrt_def,
    Ideal.ofBits_def, hz]
  rw [guarded_sqrt]
  rfl

/-- The reference's result, as a function of its two argument arrays. -/
theorem result_eq (x0 : (⟨S8192x128, .f32⟩ : BufTy).Contents (Elt Ideal)) (x1 : (⟨S8192, .i32⟩ : BufTy).Contents (Elt Ideal)) :
    val_main_v32 (F := Ideal) x0 x1 = fun _ => loss x0 x1 := by
  funext i
  rw [val_main_v32_apply, val_main_v31_apply, val_main_cst_9_apply, val_main_cst_8_apply, sum_idx2]
  simp only [entry_eq]
  show Ideal.div (Ideal.ofBits .f32 0x00000000#32 + ∑ r : Fin 8192, ∑ c : Fin 8192, entry x0 x1 r c)
      (Ideal.ofBits .f32 0x4C800000#32) = loss x0 x1
  rw [Ideal.ofBits_zero_f32, zero_add]
  rfl

end Cert.ReferenceIdeal.RefValue

end
-- ==== Proof.lean ====
/-
  The certificate of a pairwise contrastive loss: a Pallas kernel against its jnp reference.

  Both programs compute, for 8192 points `z` in 128 dimensions with labels `l`,
      (Σ_r Σ_c e(r, c)) / 8192²,   e(r, c) = (d²(r,c) if l r = l c else 0) + (0 if l r = l c else (max (1 − √d²(r,c)) 0)²),
      d²(r, c) = max (‖z r‖² + ‖z c‖² − 2·⟨z r, z c⟩) 0
  (`Cert.PairLoss.loss`). The kernel walks the pair matrix in 16 blocks of 512 rows, each against 16 groups of 512
  columns, keeps a running total per row, and leaves the final sum over rows and the division to the host; the reference
  forms the whole matrix and takes its mean, with a square root guarded at zero. On the extended reals the two agree:
  a sum may be taken in any order and grouping, a change of float format is the identity, the kernel's matrix product
  and the host's are the same contraction, and the guard is void because `√0 = 0`. No finiteness of the inputs is used.

  The kernel's value is read off its generated frame run (Proof/BodyValue.lean, Proof/KernelValue.lean), the
  reference's off its generated run, one operation at a time (Proof/RefValue.lean). The idealization rewrote nothing,
  so `preserves` is `True`.
-/
import proofs.«134183_j55181739819237_1_alg».proof.Defs
import proofs.«134183_j55181739819237_1_alg».proof.Proof.Gen.Kernel
import proofs.«134183_j55181739819237_1_alg».proof.Proof.Gen.Kernel.Skeleton
import proofs.«134183_j55181739819237_1_alg».proof.Proof.Gen.Kernel.Launch
import proofs.«134183_j55181739819237_1_alg».proof.Proof.Gen.Kernel.Points
import proofs.«134183_j55181739819237_1_alg».proof.Proof.Gen.Kernel.Frame
import proofs.«134183_j55181739819237_1_alg».proof.Proof.Gen.KernelIdeal
import proofs.«134183_j55181739819237_1_alg».proof.Proof.Gen.KernelIdeal.Skeleton
import proofs.«134183_j55181739819237_1_alg».proof.Proof.Gen.KernelIdeal.Launch
import proofs.«134183_j55181739819237_1_alg».proof.Proof.Gen.KernelIdeal.Points
import proofs.«134183_j55181739819237_1_alg».proof.Proof.Gen.KernelIdeal.Frame
import proofs.«134183_j55181739819237_1_alg».proof.Proof.Gen.ReferenceIdeal
import proofs.«134183_j55181739819237_1_alg».proof.Proof.Gen.Pre_finite_inputs
import proofs.«134183_j55181739819237_1_alg».proof.Proof.Gen.ReferenceIdeal.Run
import proofs.«134183_j55181739819237_1_alg».proof.Proof.Gen.ReferenceIdeal.Read
import proofs.«134183_j55181739819237_1_alg».proof.Proof.KernelValue
import proofs.«134183_j55181739819237_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result at the loss of the argument arrays, which agree. -/
theorem algebraic : Cert.algebraic_KernelIdeal_ReferenceIdeal := by
  intro m ρ m' ρ' _ hagree
  refine ⟨fun c _ => Cert.PairLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v32_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
